-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 23
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S8192x4096, .bf16⟩
  | .hbm, ⟨20, _⟩ => ⟨S1x4096, .f32⟩
  | .hbm, ⟨21, _⟩ => ⟨S1x4096, .f32⟩
  | .hbm, ⟨22, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_3 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_cst_5 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_v14 : Ref sig .tc := ⟨.hbm, 33, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibChunkSum.lean ====
/- A sum over m·n consecutive indices, taken chunk by chunk: in any commutative additive monoid, the sum of a family
   indexed by `Fin (m * n)` is the sum over the m chunks of each chunk's n terms, index `k` being term `k % n` of chunk
   `k / n`.  Only commutativity and associativity of the addition are used, so the law holds on the extended reals with
   no finiteness hypothesis.  Nothing here depends on a particular program: it is what joins a contraction carried out
   in blocks along the contraction axis to the same contraction carried out in one piece. -/
import Idealize.ShloMosaic.Lib.ValueIdx

open scoped BigOperators

namespace Cert.Lib.ChunkSum

/-- Term b of chunk a has index `n * a + b`, which is below `m * n`. -/
theorem chunk_index_lt {m n : ℕ} (a : Fin m) (b : Fin n) : n * a.val + b.val < m * n := by
  have ha : a.val + 1 ≤ m := a.isLt
  have hb : b.val < n := b.isLt
  calc n * a.val + b.val < n * a.val + n := Nat.add_lt_add_left hb _
    _ = n * (a.val + 1) := (Nat.mul_succ n a.val).symm
    _ ≤ n * m := Nat.mul_le_mul_left n ha
    _ = m * n := Nat.mul_comm n m

/-- A sum over `Fin (m * n)` is the sum, over the m chunks, of each chunk's n terms. -/
theorem sum_fin_chunks {M : Type*} [AddCommMonoid M] (m n : ℕ) (f : Fin (m * n) → M) :
    ∑ k : Fin (m * n), f k = ∑ a : Fin m, ∑ b : Fin n, f ⟨n * a.val + b.val, chunk_index_lt a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = n * a.val + b.val
  exact Nat.add_comm _ _

end Cert.Lib.ChunkSum
-- ==== Proof.Spec.lean ====
/-
  The function both programs compute, on the extended reals.

  A ternary dense layer: for a row r of the activations X [8192, 4096] and a column c of the (already ternarized)
  weights Q [4096, 4096], the inner product  ∑ₖ X[r,k] · Q[k,c]  over the 4096 contraction coordinates, times the
  column's scale, plus the column's bias, clamped to [-100, 100].  The two bounds are kept as the binary patterns both
  programs print; their values are never needed, since both programs clamp with the same two patterns in the same
  order (the lower bound by a maximum first, then the upper bound by a minimum).

  One program forms the inner product in one piece; the other forms it as eight consecutive chunks of 512 coordinates,
  added one after the other onto zero.  On the extended reals addition is commutative and associative (infinities
  included), so a sum over 4096 coordinates IS the sum of its eight chunk sums: `sum_chunks`.  No finiteness is used.
-/
import Idealize.ShloMosaic.PureOps.Ideal
import Idealize.ShloMosaic.PureOps.Ideal.Laws
import Idealize.ShloMosaic.Lib.ValueIdx
import proofs.«107977_j90434831385362_2_alg».proof.Proof.LibChunkSum

noncomputable section

open scoped BigOperators

open Idealize.ShloMosaic Idealize.ShloMosaic.ValueIdx

namespace Cert.TernaryDense

/-- The epilogue on one element: `d · s + b`, raised to the lower bound (the pattern of -100.0) and then lowered to the
    upper bound (the pattern of 100.0). -/
def clipAffine (d s b : EReal) : EReal :=
  min (Ideal.ofBits .f32 0x42C80000#32) (max (Ideal.ofBits .f32 0xC2C80000#32) (d * s + b))

/-- The inner product of row (i 0) of `X` and column (i 1) of `Q` over the 4096 contraction coordinates. -/
def rowDot (X : (⟨2, ![8192, 4096]⟩ : Shape).Idx → EReal) (Q : (⟨2, ![4096, 4096]⟩ : Shape).Idx → EReal)
    (i : (⟨2, ![8192, 4096]⟩ : Shape).Idx) : EReal :=
  ∑ k : Fin 4096, X (ix2 (i 0) k) * Q (ix2 k (i 1))

/-- The layer's result at (r, c): the clamped affine image of row r of `X` against column c of `Q`. -/
def dense (X : (⟨2, ![8192, 4096]⟩ : Shape).Idx → EReal) (Q : (⟨2, ![4096, 4096]⟩ : Shape).Idx → EReal)
    (s b : (⟨1, ![4096]⟩ : Shape).Idx → EReal) : (⟨2, ![8192, 4096]⟩ : Shape).Idx → EReal := fun i =>
  clipAffine (rowDot X Q i) (s (ix1 (i 1))) (b (ix1 (i 1)))

/-- A sum over the 4096 contraction coordinates is the sum, over the eight chunks, of each chunk's 512 terms:
    coordinate `k` is term `k % 512` of chunk `k / 512`. -/
theorem sum_chunks {M : Type*} [AddCommMonoid M] (f : Fin 4096 → M) :
    ∑ k : Fin 4096, f k
      = ∑ a : Fin 8, ∑ kk : Fin 512, f ⟨512 * a.val + kk.val, by have := a.isLt; have := kk.isLt; omega⟩ :=
  Cert.Lib.ChunkSum.sum_fin_chunks 8 512 f

end Cert.TernaryDense

end
-- ==== Proof.RefAtIndex.lean ====
/-
  The reference's result, read at an index, is the dense layer of `Spec.lean`.

  The reference computes, stage by stage: the ternarized weights (kept here as one array `Q`, never opened), ONE
  inner product over all 4096 contraction coordinates, the product with the scale and the sum with the bias — each a
  vector of 4096 entries broadcast along the rows —, a maximum with the lower bound and a minimum with the upper
  bound.  At an index (r, c) that is `clipAffine (∑ₖ X[r,k]·Q[k,c]) (scale c) (bias c)`.
-/
import proofs.«107977_j90434831385362_2_alg».proof.Proof.Gen.ReferenceIdeal.Read
import proofs.«107977_j90434831385362_2_alg».proof.Proof.Spec

noncomputable section

open scoped BigOperators

open Idealize.ShloMosaic Idealize.ShloMosaic.ValueIdx

namespace Cert.TernaryDense.Ref

open Cert.ReferenceIdeal Cert.ReferenceIdeal.Read

/-- The reference's last stage is `dense` of the activations, the ternarized weights (its own stage `val_main_v6`),
    the scale and the bias. -/
theorem result_eq_dense (x0 : (⟨S8192x4096, .f32⟩ : BufTy).Contents (Elt Ideal)) (x1 : (⟨S4096x4096, .f32⟩ : BufTy).Contents (Elt Ideal))
    (x2 x3 : (⟨S4096, .f32⟩ : BufTy).Contents (Elt Ideal)) :
    val_main_v14 (F := Ideal) x0 x1 x2 x3 = dense x0 (val_main_v6 (F := Ideal) x1) x2 x3 := by
  funext i
  -- the operand indices of the inner product at (r, c) and coordinate k are (r, k) and (k, c)
  have el : ∀ k : Fin 4096, lidx_main_v7 i k = ix2 (i 0) k := fun k => funext fun a => Fin.ext (by
    match a with
    | ⟨0, _⟩ => rfl
    | ⟨1, _⟩ => rfl)
  have er : ∀ k : Fin 4096, ridx_main_v7 i k = ix2 k (i 1) := fun k => funext fun a => Fin.ext (by
    match a with
    | ⟨0, _⟩ => rfl
    | ⟨1, _⟩ => rfl)
  -- the two broadcasts of a 4096-vector along the rows read it at the column
  have es : idx_main_v8 (idx_main_v9 i) = ix1 (i 1) := funext fun a => Fin.ext (by
    match a with
    | ⟨0, _⟩ => rfl)
  have eb : idx_main_v11 (idx_main_v12 i) = ix1 (i 1) := funext fun a => Fin.ext (by
    match a with
    | ⟨0, _⟩ => rfl)
  rw [val_main_v14_apply, val_main_call2_v4_apply, val_main_call2_v3_apply, val_main_cst_5_apply,
    val_main_call2_v2_apply, val_main_call2_v1_apply, val_main_call2_v0_apply, val_main_cst_4_apply,
    val_main_v13_apply, val_main_v10_apply, val_main_v7_apply, val_main_v9_apply, val_main_v8_apply,
    val_main_v12_apply, val_main_v11_apply, es, eb]
  simp only [el, er]
  rfl

end Cert.TernaryDense.Ref

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Payloads.lean ====
/-
  The kernel body's three stored values, read at an element (p, q) of the 1024 × 1024 output block.

  * the reset value is zero everywhere;
  * the accumulation step adds, to what the block held, the product of the point's activation block [1024, 512] and
    weight block [512, 1024]:  acc(p,q) + ∑ₖ x(p,k) · w(k,q)  over the chunk's 512 coordinates (the block-to-itself
    shape casts are identities, and a matrix product into the zero accumulator is the plain sum);
  * the epilogue multiplies by the scale's block entry of column q, adds the bias's, and clamps: the same
    `clipAffine` as the reference's (the one-row blocks are broadcast along the 1024 rows, so row p reads row 0).
-/
import proofs.«107977_j90434831385362_2_alg».proof.Proof.Gen.KernelIdeal.Skeleton
import proofs.«107977_j90434831385362_2_alg».proof.Proof.Spec
import proofs.«107977_j90434831385362_2_alg».proof.Proof.LibPlainMatmul
import Idealize.ShloMosaic.Lib.Pipeline.Value
import Idealize.ShloMosaic.Lib.ValueIdx

noncomputable section

open scoped BigOperators

open Idealize.ShloMosaic Idealize.ShloMosaic.ValueIdx

namespace Cert.TernaryDense.Kernel

open Cert.KernelIdeal Cert.KernelIdeal.Gen

/-- The reset value: zero at every element. -/
theorem reset_apply (y : S1024x1024.Idx) : k0_pay1 (F := Ideal) y = 0 := by
  show Ideal.ofBits .f32 0x00000000#32 = 0
  exact Ideal.ofBits_zero_f32

/-- The chunk's inner product at a block element: row (y 0) of an activation block against column (y 1) of a weight
    block, over the chunk's 512 coordinates. -/
def chunkDot (x : Vec Ideal S1024x512 .bf16) (w : Vec Ideal S512x1024 .bf16) (y : S1024x1024.Idx) : EReal :=
  ∑ kk : Fin 512, x (ix2 (y 0) kk) * w (ix2 kk (y 1))

theorem chunkDot_apply (x : Vec Ideal S1024x512 .bf16) (w : Vec Ideal S512x1024 .bf16) (p q : Fin 1024) :
    chunkDot x w (ix2 p q) = ∑ kk : Fin 512, x (ix2 p kk) * w (ix2 kk q) := rfl

/-- The accumulation step at (p, q): what the block held there plus the chunk's inner product. -/
theorem accumulate_apply (acc : Vec Ideal S1024x1024 .f32) (x : Vec Ideal S1024x512 .bf16) (w : Vec Ideal S512x1024 .bf16)
    (p q : Fin 1024) :
    k0_pay2 acc x w (ix2 p q) = acc (ix2 p q) + chunkDot x w (ix2 p q) := by
  unfold k0_pay2
  simp only [shapeCast_self]
  exact congrArg (acc (ix2 p q) + ·) (Cert.Lib.PlainMatmul.plain_matmul_zero_apply x w p q)

/-- A one-row block broadcast along the 1024 rows reads, at (p, q), the row's entry q. -/
theorem rowBroadcast_apply (s : Vec Ideal S1x1024 .f32) (p q : Fin 1024) :
    broadcastTo S1024x1024 s broadcasts_S1x1024_S1024x1024 (ix2 p q) = s (ix2 (0 : Fin 1) q) :=
  broadcastTo_apply s broadcasts_S1x1024_S1024x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)])

/-- The epilogue at (p, q): the clamped affine image of the accumulated value under column q's scale and bias. -/
theorem epilogue_apply (v : Vec Ideal S1024x1024 .f32) (s b : Vec Ideal S1x1024 .f32) (p q : Fin 1024) :
    k0_pay3 v s b (ix2 p q) = clipAffine (v (ix2 p q)) (s (ix2 (0 : Fin 1) q)) (b (ix2 (0 : Fin 1) q)) := by
  unfold k0_pay3
  simp only [shapeCast_self]
  show min (Ideal.ofBits .f32 0x42C80000#32) (max (Ideal.ofBits .f32 0xC2C80000#32)
      (v (ix2 p q) * broadcastTo S1024x1024 s broadcasts_S1x1024_S1024x1024 (ix2 p q)
        + broadcastTo S1024x1024 b broadcasts_S1x1024_S1024x1024 (ix2 p q))) = _
  rw [rowBroadcast_apply, rowBroadcast_apply]
  rfl

end Cert.TernaryDense.Kernel

end
-- ==== Proof.EntryArrays.lean ====
/-
  What the kernel's region finds in the arrays its four input windows read, and where each window's block sits.

  Before the region the program ternarizes the weights (two comparisons against ±0.5 and two selections among
  1, -1, 0 — kept here as one function `ternW` of the weight array, never opened), narrows the ternarized weights and
  the activations to a 16-bit format (the identity on the extended reals), and lays the scale and the bias, vectors of
  4096 entries, out as [1, 4096] rows.

  The grid has 8 × 4 × 8 points; point t has coordinates (t / 32, t / 8 % 4, t % 8): a row block of 1024 rows, a
  column block of 1024 columns, and a chunk of 512 contraction coordinates.  At point t the activations' block is
  rows 1024·(t/32).. by coordinates 512·(t%8)..; the weights' block is coordinates 512·(t%8).. by columns
  1024·(t/8%4)..; the scale's and the bias's blocks are columns 1024·(t/8%4).. of their one row.
-/
import proofs.«107977_j90434831385362_2_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.StableHlo
open Idealize.ShloMosaic.ValueIdx

namespace Cert.TernaryDense.Kernel

open Cert.KernelIdeal Cert.KernelIdeal.Gen

variable (m : (ℓ : Loc nD τ sig) → Buf (Elt Ideal) ℓ)

/-- The ternarized weights, as the program's prefix computes them from the weight array: 1 where the weight exceeds
    0.5, else -1 where it is below -0.5, else 0. -/
def ternW (W : (⟨S4096x4096, .f32⟩ : BufTy).Contents (Elt Ideal)) : (⟨S4096x4096, .f32⟩ : BufTy).Contents (Elt Ideal) :=
  select (cmpf .ogt W (broadcastInDim S4096x4096 ![] bcast_S_S4096x4096 (constant (F := Ideal) S_ .f32 0x3F000000#32)))
    (broadcastInDim S4096x4096 ![] bcast_S_S4096x4096 (constant (F := Ideal) S_ .f32 0x3F800000#32))
    (select (cmpf .olt W (broadcastInDim S4096x4096 ![] bcast_S_S4096x4096 (constant (F := Ideal) S_ .f32 0xBF000000#32)))
      (broadcastInDim S4096x4096 ![] bcast_S_S4096x4096 (constant (F := Ideal) S_ .f32 0xBF800000#32))
      (broadcastInDim S4096x4096 ![] bcast_S_S4096x4096 (constant (F := Ideal) S_ .f32 0x00000000#32)))

/-- The activations' window reads the activations, narrowed. -/
theorem entry_x (c : Dev nD) :
    @Eq (FVec Ideal S8192x4096 .bf16) (V m c main_v7)
      (truncf .bf16 (m ((c : Thread nD τ).loc main_arg0) : FVec Ideal S8192x4096 .f32) bitsLt_bf16_f32) := by
  dsimp only [V]
  simp only [hostOps0, hostOps0_1, hostOps0_2, hostOps0_3, hostOps0_4, List.flatten_cons, List.flatten_nil, List.append_nil,
    List.cons_append, List.nil_append]
  after_results <;> rfl

/-- The weights' window reads the ternarized weights, narrowed. -/
theorem entry_w (c : Dev nD) :
    @Eq (FVec Ideal S4096x4096 .bf16) (V m c main_v6)
      (truncf .bf16 (ternW (m ((c : Thread nD τ).loc main_arg1)) : FVec Ideal S4096x4096 .f32) bitsLt_bf16_f32) := by
  dsimp only [V]
  simp only [hostOps0, hostOps0_1, hostOps0_2, hostOps0_3, hostOps0_4, List.flatten_cons, List.flatten_nil, List.append_nil,
    List.cons_append, List.nil_append]
  after_results <;> rfl

/-- The scale's window reads the scale laid out as one row. -/
theorem entry_scale (c : Dev nD) :
    (V m c main_v8 : S1x4096.Idx → EReal) = shapeCast S1x4096 (m ((c : Thread nD τ).loc main_arg2)) shapeCasts_S4096_S1x4096 := by
  dsimp only [V]
  simp only [hostOps0, hostOps0_1, hostOps0_2, hostOps0_3, hostOps0_4, List.flatten_cons, List.flatten_nil, List.append_nil,
    List.cons_append, List.nil_append]
  after_results <;> rfl

/-- The bias's window reads the bias laid out as one row. -/
theorem entry_bias (c : Dev nD) :
    (V m c main_v9 : S1x4096.Idx → EReal) = shapeCast S1x4096 (m ((c : Thread nD τ).loc main_arg3)) shapeCasts_S4096_S1x4096 := by
  dsimp only [V]
  simp only [hostOps0, hostOps0_1, hostOps0_2, hostOps0_3, hostOps0_4, List.flatten_cons, List.flatten_nil, List.append_nil,
    List.cons_append, List.nil_append]
  after_results <;> rfl

/-- The four input windows' block indices at point t, from t's three coordinates (decided over the 256 points). -/
theorem block_indices : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = 0 ∧ win0_3.index t (1 : Fin 2) = t.val / 8 % 4 :=
  (by decide +kernel : ∀ t : Fin grid0.N, _)

end Cert.TernaryDense.Kernel

end
-- ==== Proof.BlockReads.lean ====
/-
  Each input window's block at a grid point, read at an element: the argument array at explicit coordinates.

  A block's element (a, b) sits in its array at (block index₀ · block rows + a, block index₁ · block columns + b).
  With the block indices of `EntryArrays.lean`, at point t:
    activations  block (p, kk)  =  X[1024·(t/32) + p,  512·(t%8) + kk]
    weights      block (kk, q)  =  Q[512·(t%8) + kk,   1024·(t/8%4) + q]      (Q the ternarized weights)
    scale, bias  block (0, q)   =  scale[1024·(t/8%4) + q],  bias[1024·(t/8%4) + q]
  The narrowing to 16 bits is the identity, and the one-row layout of a vector reads the vector at the column.
-/
import proofs.«107977_j90434831385362_2_alg».proof.Proof.EntryArrays

noncomputable section

open Idealize.ShloMosaic Idealize.ShloMosaic.TcCoe Idealize.SL.Sem
open Idealize.ShloMosaic.ValueIdx

namespace Cert.TernaryDense.Kernel

open Cert.KernelIdeal Cert.KernelIdeal.Gen

variable (m : (ℓ : Loc nD τ sig) → Buf (Elt Ideal) ℓ)

/-- The activations' block at point t, element (p, kk): the activations at row 1024·(t/32) + p and contraction
    coordinate 512·(t%8) + kk. -/
theorem xblock_apply (c : Dev nD) (t : Fin cfg0.N) (p : Fin 1024) (kk : Fin 512) (r : Fin 8192) (k : Fin 4096)
    (hr : r.val = 1024 * (t.val / 32) + p.val) (hk : k.val = 512 * (t.val % 8) + kk.val) :
    (iblk m c 0 t : Vec Ideal S1024x512 .bf16) (ix2 p kk) = m ((c : Thread nD τ).loc main_arg0) (ix2 r k) := by
  obtain ⟨e0, e1, -⟩ := block_indices t
  show V m c main_v7 (((cfg0.win 0).blk t).view.emb (ix2 p kk)) = _
  rw [entry_x]
  show m ((c : Thread nD τ).loc main_arg0) (((cfg0.win 0).blk t).view.emb (ix2 p kk)) = _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * kk.val = k.val; rw [e1, hk]; omega

/-- The weights' block at point t, element (kk, q): the ternarized weights at contraction coordinate 512·(t%8) + kk
    and column 1024·(t/8%4) + q. -/
theorem wblock_apply (c : Dev nD) (t : Fin cfg0.N) (kk : Fin 512) (q : Fin 1024) (k : Fin 4096) (cc : Fin 4096)
    (hk : k.val = 512 * (t.val % 8) + kk.val) (hc : cc.val = 1024 * (t.val / 8 % 4) + q.val) :
    (iblk m c 1 t : Vec Ideal S512x1024 .bf16) (ix2 kk q) = ternW (m ((c : Thread nD τ).loc main_arg1)) (ix2 k cc) := by
  obtain ⟨-, -, e0, e1, -⟩ := block_indices t
  show V m c main_v6 (((cfg0.win 1).blk t).view.emb (ix2 kk q)) = _
  rw [entry_w]
  show ternW (m ((c : Thread nD τ).loc main_arg1)) (((cfg0.win 1).blk t).view.emb (ix2 kk q)) = _
  refine congrArg _ (funext fun a => Fin.ext ?_)
  match a with
  | ⟨0, _⟩ => show win0_1.index t (0 : Fin 2) * 512 + 1 * kk.val = k.val; rw [e0, hk]; omega
  | ⟨1, _⟩ => show win0_1.index t (1 : Fin 2) * 1024 + 1 * q.val = cc.val; rw [e1, hc]; omega

/-- The scale's block at point t, element (0, q): the scale at column 1024·(t/8%4) + q. -/
theorem scaleblock_apply (c : Dev nD) (t : Fin cfg0.N) (u : Fin 1) (q : Fin 1024) (cc : Fin 4096)
    (hc : cc.val = 1024 * (t.val / 8 % 4) + q.val) :
    (iblk m c 2 t : Vec Ideal S1x1024 .f32) (ix2 u q) = m ((c : Thread nD τ).loc main_arg2) (ix1 cc) := by
  obtain ⟨-, -, -, -, e0, e1, -⟩ := block_indices t
  have hu : u.val = 0 := by omega
  show V m c main_v8 (((cfg0.win 2).blk t).view.emb (ix2 u q)) = _
  rw [entry_scale]
  refine shapeCast_apply _ _ _ _ ?_
  show (S4096.rowMajor (ix1 cc)).val = (S1x4096.rowMajor (((cfg0.win 2).blk t).view.emb (ix2 u q))).val
  rw [Shape.rowMajor_val_two, Shape.rowMajor_val_one]
  show cc.val = (win0_2.index t (0 : Fin 2) * 1 + 1 * u.val) * 4096 + (win0_2.index t (1 : Fin 2) * 1024 + 1 * q.val)
  rw [e0, e1, hc, hu]
  omega

/-- The bias's block at point t, element (0, q): the bias at column 1024·(t/8%4) + q. -/
theorem biasblock_apply (c : Dev nD) (t : Fin cfg0.N) (u : Fin 1) (q : Fin 1024) (cc : Fin 4096)
    (hc : cc.val = 1024 * (t.val / 8 % 4) + q.val) :
    (iblk m c 3 t : Vec Ideal S1x1024 .f32) (ix2 u q) = m ((c : Thread nD τ).loc main_arg3) (ix1 cc) := by
  obtain ⟨-, -, -, -, -, -, e0, e1⟩ := block_indices t
  have hu : u.val = 0 := by omega
  show V m c main_v9 (((cfg0.win 3).blk t).view.emb (ix2 u q)) = _
  rw [entry_bias]
  refine shapeCast_apply _ _ _ _ ?_
  show (S4096.rowMajor (ix1 cc)).val = (S1x4096.rowMajor (((cfg0.win 3).blk t).view.emb (ix2 u q))).val
  rw [Shape.rowMajor_val_two, Shape.rowMajor_val_one]
  show cc.val = (win0_3.index t (0 : Fin 2) * 1 + 1 * u.val) * 4096 + (win0_3.index t (1 : Fin 2) * 1024 + 1 * q.val)
  rw [e0, e1, hc, hu]
  omega

end Cert.TernaryDense.Kernel

end
-- ==== Proof.Fold.lean ====
/-
  The output block after a run of eight grid points, and the whole result array.

  The eight points 8r … 8r+7 share one output block (row block r/4, column block r%4) and walk the eight chunks of the
  contraction axis.  The first point resets the block to zero and adds its chunk's inner product; the next six add
  theirs; the last adds its own and then applies the epilogue.  So the block ends holding, at (p, q),
      clipAffine (∑ over the eight points of that point's chunk inner product at (p, q)) (scale entry) (bias entry),
  and the eight chunk sums are the one sum over all 4096 coordinates (`sum_chunks`): the array ends holding `dense`.
-/
import proofs.«107977_j90434831385362_2_alg».proof.Proof.Gen.KernelIdeal.Value
import proofs.«107977_j90434831385362_2_alg».proof.Proof.Payloads
import proofs.«107977_j90434831385362_2_alg».proof.Proof.BlockReads

noncomputable section

open scoped BigOperators

open Idealize.ShloMosaic Idealize.ShloMosaic.TcCoe Idealize.SL.Sem
open Idealize.ShloMosaic.ValueIdx

namespace Cert.TernaryDense.Kernel

open Cert.KernelIdeal Cert.KernelIdeal.Gen

variable (m : (ℓ : Loc nD τ sig) → Buf (Elt Ideal) ℓ)

/-- Point n's addend at a block element: the inner product of its activation block's row and its weight block's column
    over the chunk's 512 coordinates (zero past the grid, where it is never read). -/
def addend (c : Dev nD) (n : ℕ) (y : S1024x1024.Idx) : EReal :=
  if h : n < cfg0.N then chunkDot (iblk m c 0 ⟨n, h⟩) (iblk m c 1 ⟨n, h⟩) y else 0

theorem addend_eq (c : Dev nD) (n : ℕ) (h : n < cfg0.N) (y : S1024x1024.Idx) :
    addend m c n y = chunkDot (iblk m c 0 ⟨n, h⟩) (iblk m c 1 ⟨n, h⟩) y := by
  unfold addend
  exact dif_pos h

/-- At a point that is neither first nor last in its run, the step adds the point's chunk product. -/
theorem step_middle (c : Dev nD) (n : ℕ) (h : n < cfg0.N) (acc : Vec Ideal S1024x1024 .f32) (h0 : ¬n % 8 = 0) (h7 : ¬n % 8 = 7) :
    Value.step4 m c n h acc = k0_pay2 acc (iblk m c 0 ⟨n, h⟩) (iblk m c 1 ⟨n, h⟩) := by
  unfold Value.step4
  rw [if_pos ⟨h0, h7⟩]

/-- At the last point of a run the step adds the point's chunk product and applies the epilogue. -/
theorem step_last (c : Dev nD) (n : ℕ) (h : n < cfg0.N) (acc : Vec Ideal S1024x1024 .f32) (h7 : n % 8 = 7) :
    Value.step4 m c n h acc
      = k0_pay3 (k0_pay2 acc (iblk m c 0 ⟨n, h⟩) (iblk m c 1 ⟨n, h⟩)) (iblk m c 2 ⟨n, h⟩) (iblk m c 3 ⟨n, h⟩) := by
  unfold Value.step4
  rw [if_neg (fun hh => hh.2 h7), if_pos ⟨by omega, h7⟩]

/-- After the first seven points of run r the block holds, at each element, zero plus the seven addends. -/
theorem fold_seven (c : Dev nD) (r : ℕ) (h : 8 * r + 6 < cfg0.N) (y : S1024x1024.Idx) :
    Pipeline.accAt (Value.reset4 m c) (Value.step4 m c) (8 * r) 6 h y
      = 0 + ∑ s ∈ Finset.range 7, addend m c (8 * r + s) y :=
  Pipeline.accAt_add_apply (ι := S1024x1024.Idx) (β := EReal) (Value.reset4 m c) (Value.step4 m c) (fun _ => 0) (addend m c) (8 * r) 6
    (fun hb y => by
      obtain ⟨p, q, rfl⟩ : ∃ (p q : Fin 1024), y = ix2 p q := ⟨y 0, y 1, eq_ix2 y⟩
      refine (accumulate_apply (k0_pay1 (F := Ideal)) (iblk m c 0 ⟨8 * r, hb⟩) (iblk m c 1 ⟨8 * r, hb⟩) p q).trans ?_
      exact congrArg₂ (· + ·) (reset_apply (ix2 p q)) (addend_eq m c (8 * r) hb (ix2 p q)).symm)
    (fun n hn acc y hlt hle => by
      obtain ⟨p, q, rfl⟩ : ∃ (p q : Fin 1024), y = ix2 p q := ⟨y 0, y 1, eq_ix2 y⟩
      rw [step_middle m c n hn acc (by omega) (by omega)]
      exact (accumulate_apply acc (iblk m c 0 ⟨n, hn⟩) (iblk m c 1 ⟨n, hn⟩) p q).trans
        (congrArg (acc (ix2 p q) + ·) (addend_eq m c n hn (ix2 p q)).symm))
    6 le_rfl h y

/-- After all eight points of run r the block holds, at (p, q), the clamped affine image of the eight addends' sum under
    the last point's scale and bias block entries of column q. -/
theorem fold_run (c : Dev nD) (r : ℕ) (h : 8 * r + 7 < cfg0.N) (p q : Fin 1024) :
    Pipeline.accAt (Value.reset4 m c) (Value.step4 m c) (8 * r) 7 h (ix2 p q)
      = clipAffine (∑ s ∈ Finset.range 8, addend m c (8 * r + s) (ix2 p q))
          ((iblk m c 2 ⟨8 * r + 7, h⟩ : Vec Ideal S1x1024 .f32) (ix2 (0 : Fin 1) q))
          ((iblk m c 3 ⟨8 * r + 7, h⟩ : Vec Ideal S1x1024 .f32) (ix2 (0 : Fin 1) q)) := by
  show Value.step4 m c (8 * r + 7) h (Pipeline.accAt (Value.reset4 m c) (Value.step4 m c) (8 * r) 6 (Nat.lt_of_succ_lt h))
      (ix2 p q) = _
  rw [step_last m c (8 * r + 7) h _ (by omega)]
  refine (epilogue_apply (k0_pay2 (Pipeline.accAt (Value.reset4 m c) (Value.step4 m c) (8 * r) 6 (Nat.lt_of_succ_lt h))
      (iblk m c 0 ⟨8 * r + 7, h⟩) (iblk m c 1 ⟨8 * r + 7, h⟩))
    (iblk m c 2 ⟨8 * r + 7, h⟩) (iblk m c 3 ⟨8 * r + 7, h⟩) p q).trans ?_
  refine congrArg (fun d => clipAffine d _ _) ?_
  refine (accumulate_apply (Pipeline.accAt (Value.reset4 m c) (Value.step4 m c) (8 * r) 6 (Nat.lt_of_succ_lt h))
    (iblk m c 0 ⟨8 * r + 7, h⟩) (iblk m c 1 ⟨8 * r + 7, h⟩) p q).trans ?_
  rw [fold_seven, zero_add]
  exact (congrArg (_ + ·) (addend_eq m c (8 * r + 7) h (ix2 p q)).symm).trans
    (Finset.sum_range_succ (fun s => addend m c (8 * r + s) (ix2 p q)) 7).symm

end Cert.TernaryDense.Kernel

end
-- ==== Proof.Result.lean ====
/-
  The kernel's result array is the dense layer of `Spec.lean`.

  The array's element (R, C) lies in the block of row block R/1024 and column block C/1024, at place (R%1024, C%1024);
  that block is written back by the last point of run r = 4·(R/1024) + C/1024, whose fold `fold_run` gives.  Point
  8r + a of the run reads activation rows 1024·(R/1024).., weight columns 1024·(C/1024).. and chunk a of the contraction
  axis, so its addend at the place is  ∑ over the chunk's 512 coordinates k of X[R,k]·Q[k,C];  the eight chunks make
  the whole sum, and the last point's scale and bias entries are those of column C.
-/
import proofs.«107977_j90434831385362_2_alg».proof.Proof.Fold

noncomputable section

open scoped BigOperators

open Idealize.ShloMosaic Idealize.ShloMosaic.TcCoe Idealize.SL.Sem
open Idealize.ShloMosaic.ValueIdx

namespace Cert.TernaryDense.Kernel

open Cert.KernelIdeal Cert.KernelIdeal.Gen

variable (m : (ℓ : Loc nD τ sig) → Buf (Elt Ideal) ℓ)

/-- The eight addends of the run that owns element i's block, at i's place in the block, sum to the inner product of
    i's activation row and ternarized-weight column over all 4096 coordinates. -/
theorem addends_sum (c : Dev nD) (i : S8192x4096.Idx) (R : ℕ) (hR : R = 4 * ((i 0).val / 1024) + (i 1).val / 1024)
    (p q : Fin 1024) (hp : p.val = (i 0).val % 1024) (hq : q.val = (i 1).val % 1024) :
    ∑ s ∈ Finset.range 8, addend m c (8 * R + s) (ix2 p q)
      = rowDot (m ((c : Thread nD τ).loc main_arg0)) (ternW (m ((c : Thread nD τ).loc main_arg1))) i := by
  have hi0 : (i 0).val < 8192 := (i 0).isLt
  have hi1 : (i 1).val < 4096 := (i 1).isLt
  have hN : cfg0.N = 256 := N_0
  unfold rowDot
  rw [Finset.sum_range, sum_chunks]
  refine Finset.sum_congr rfl fun a _ => ?_
  have ha : a.val < 8 := a.isLt
  have hlt : 8 * R + a.val < cfg0.N := by rw [hN]; omega
  rw [addend_eq m c (8 * R + a.val) hlt, chunkDot_apply]
  refine Finset.sum_congr rfl fun kk _ => ?_
  have hkk : kk.val < 512 := kk.isLt
  exact congrArg₂ (fun u v : EReal => u * v)
    (xblock_apply m c ⟨8 * R + a.val, hlt⟩ p kk (i 0) ⟨512 * a.val + kk.val, by omega⟩
      (by show (i 0).val = 1024 * ((8 * R + a.val) / 32) + p.val; omega)
      (by show 512 * a.val + kk.val = 512 * ((8 * R + a.val) % 8) + kk.val; omega))
    (wblock_apply m c ⟨8 * R + a.val, hlt⟩ kk q ⟨512 * a.val + kk.val, by omega⟩ (i 1)
      (by show 512 * a.val + kk.val = 512 * ((8 * R + a.val) % 8) + kk.val; omega)
      (by show (i 1).val = 1024 * ((8 * R + a.val) / 8 % 4) + q.val; omega))

/-- After the run the result array holds the dense layer of the activations, the ternarized weights, the scale and the
    bias. -/
theorem result_eq_dense (c : Dev nD) :
    Value.G4 (F := Ideal) m c
      = dense (m ((c : Thread nD τ).loc main_arg0)) (ternW (m ((c : Thread nD τ).loc main_arg1)))
          (m ((c : Thread nD τ).loc main_arg2)) (m ((c : Thread nD τ).loc main_arg3)) := by
  funext i
  have hi0 : (i 0).val < 8192 := (i 0).isLt
  have hi1 : (i 1).val < 4096 := (i 1).isLt
  have hN : cfg0.N = 256 := N_0
  have hR : Value.run4Of i = 4 * ((i 0).val / 1024) + (i 1).val / 1024 := by
    show 4 * ((i 0).val / 1024 - 0) + 1 * ((i 1).val / 1024 - 0) = _
    omega
  have hrun : 8 * Value.run4Of i + 7 < cfg0.N := by rw [hN, hR]; omega
  have hloc : Value.loc4Of i
      = ix2 (⟨(i 0).val % 1024, Nat.mod_lt _ (by decide)⟩ : Fin 1024) (⟨(i 1).val % 1024, Nat.mod_lt _ (by decide)⟩ : Fin 1024) :=
    funext fun a => Fin.ext (by
      match a with
      | ⟨0, _⟩ => rfl
      | ⟨1, _⟩ => rfl)
  unfold Value.G4
  rw [dif_pos hrun, hloc, fold_run,
    addends_sum m c i (Value.run4Of i) hR _ _ rfl rfl,
    scaleblock_apply m c ⟨8 * Value.run4Of i + 7, hrun⟩ (0 : Fin 1) _ (i 1)
      (by show (i 1).val = 1024 * ((8 * Value.run4Of i + 7) / 8 % 4) + (i 1).val % 1024; omega),
    biasblock_apply m c ⟨8 * Value.run4Of i + 7, hrun⟩ (0 : Fin 1) _ (i 1)
      (by show (i 1).val = 1024 * ((8 * Value.run4Of i + 7) / 8 % 4) + (i 1).val % 1024; omega)]
  rfl

end Cert.TernaryDense.Kernel

end
-- ==== Proof.lean ====
/-
  A ternary dense layer: both programs compute, for activations X [8192, 4096], weights W [4096, 4096], a scale and a
  bias of 4096 entries each,
      out[r, c] = min(100, max(-100, (∑ₖ X[r,k] · T(W)[k,c]) · scale[c] + bias[c])),
  where T ternarizes a weight to 1, -1 or 0 by comparing it with ±0.5.

  The reference forms the inner product in one piece.  The kernel first narrows X and T(W) to a 16-bit format (the
  identity on the extended reals), then walks a grid of 8 row blocks × 4 column blocks × 8 chunks of the contraction
  axis: the output block of a (row block, column block) pair stays resident over the pair's eight chunks, is zeroed at
  the first, receives each chunk's partial product, and is scaled, shifted and clamped at the last.  On the extended
  reals a sum over 4096 coordinates is the sum of its eight chunk sums (addition is commutative and associative,
  infinities included), so the two results agree element by element; no finiteness of the inputs is needed, and the
  clamp bounds and the ternarization are the same terms on both sides and are never evaluated.

  The modules: `Spec` (the layer as one function, the chunked-sum law), `RefAtIndex` (the reference is that function),
  `EntryArrays` / `BlockReads` (what each grid point's blocks hold), `Payloads` (the body's three stored values at an
  element), `Fold` (the resident block after a run of eight points), `Result` (the kernel's result array is that
  function).  The frames and the kernel's run are the generated ones.
-/
import proofs.«107977_j90434831385362_2_alg».proof.Defs
import proofs.«107977_j90434831385362_2_alg».proof.Proof.Gen.Kernel.Frame
import proofs.«107977_j90434831385362_2_alg».proof.Proof.Gen.KernelIdeal.Value
import proofs.«107977_j90434831385362_2_alg».proof.Proof.Gen.Pre_finite_inputs
import proofs.«107977_j90434831385362_2_alg».proof.Proof.Gen.ReferenceIdeal.Run
import proofs.«107977_j90434831385362_2_alg».proof.Proof.RefAtIndex
import proofs.«107977_j90434831385362_2_alg».proof.Proof.Result
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- The two programs ternarize the weights by the same comparisons and selections: the reference's stage and the
    kernel's prefix are one function of the weight array. -/
theorem ternarized_agree (W : (⟨Cert.KernelIdeal.S4096x4096, .f32⟩ : BufTy).Contents (Elt Ideal)) :
    Cert.ReferenceIdeal.Read.val_main_v6 (F := Ideal) W = Cert.TernaryDense.Kernel.ternW W := rfl

/-- Run from memories that agree on the four arguments, both programs end with the dense layer of those arguments in
    their result arrays. -/
theorem algebraic_KernelIdeal_ReferenceIdeal : algebraic_KernelIdeal_ReferenceIdeal := by
  intro m ρ m' ρ' _ hagree
  refine ⟨fun c => Cert.KernelIdeal.Value.G4 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Value.G4 m c
  rw [Cert.ReferenceIdeal.Read.val_main_v14_eq, Cert.TernaryDense.Ref.result_eq_dense,
    (hagree c).1, (hagree c).2.1, (hagree c).2.2.1, (hagree c).2.2.2,
    Cert.TernaryDense.Kernel.result_eq_dense, ternarized_agree]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
